-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S512x32x256 : Shape := ⟨3, ![512, 32, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S512x32x256 : S_.BroadcastsInDim S512x32x256 (![] : Fin 0 → Fin S512x32x256.rank)
  reducesTo_S512x32x256_S_d0_1_2 : S512x32x256.ReducesTo [0, 1, 2] S_

variable [Facts]

def fn {F : FTy → Type} [FloatOps F] (main_arg0 : FVec F S8192x256 .f32) (main_arg1 : FVec F S512x32x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S512x32x256 .f32 := Host.absf main_arg1
  let main_cst_0 : FVec F S_ .f32 := constant S_ .f32 0x7F800000#32
  let main_v5 : FVec F S512x32x256 .f32 := broadcastInDim S512x32x256 ![] bcast_S_S512x32x256 main_cst_0
  let main_v6 : IVec S512x32x256 1 := cmpf .olt main_v4 main_v5
  let main_c_1 : IVec S_ 1 := constantI S_ 1 1#1
  let main_v7 : IVec S_ 1 := (fun x v => Host.reduce IntOp.andi x v reducesTo_S512x32x256_S_d0_1_2 h_S_) main_v6 main_c_1
  let main_v8 : IVec S_ 1 := andi main_v3 main_v7
  main_v8
-- ==== Kernel.lean ====
abbrev S8192x256 : Shape := ⟨2, ![8192, 256]⟩
abbrev S512x32x256 : Shape := ⟨3, ![512, 32, 256]⟩
abbrev S32x512x256 : Shape := ⟨3, ![32, 512, 256]⟩
abbrev S8192x512 : Shape := ⟨2, ![8192, 512]⟩
abbrev S1024x256 : Shape := ⟨2, ![1024, 256]⟩
abbrev S32x128x256 : Shape := ⟨3, ![32, 128, 256]⟩
abbrev S1024x128 : Shape := ⟨2, ![1024, 128]⟩
abbrev S4096x256 : Shape := ⟨2, ![4096, 256]⟩
abbrev S1024x4096 : Shape := ⟨2, ![1024, 4096]⟩
abbrev S1024x32x128 : Shape := ⟨3, ![1024, 32, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S512x32x256, .f32⟩
  | .hbm, ⟨2, _⟩ => ⟨S32x512x256, .f32⟩
  | .hbm, ⟨3, _⟩ => ⟨S32x512x256, .bf16⟩
  | .hbm, ⟨4, _⟩ => ⟨S8192x512, .f32⟩
  | .local _ .vmem, ⟨0, _⟩ => ⟨S1024x256, .f32⟩
  | .local _ .vmem, ⟨1, _⟩ => ⟨S1024x256, .f32⟩
  | .local _ .vmem, ⟨2, _⟩ => ⟨S32x128x256, .bf16⟩
  | .local _ .vmem, ⟨3, _⟩ => ⟨S32x128x256, .bf16⟩
  | .local _ .vmem, ⟨4, _⟩ => ⟨S1024x128, .f32⟩
  | .local _ .vmem, ⟨5, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S512x32x256_S32x512x256_1_0_2 : S512x32x256.Transposes [1, 0, 2] S32x512x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  shapeCasts_S32x128x256_S4096x256 : S32x128x256.ShapeCasts S4096x256
  shapeCasts_S1024x4096_S1024x32x128 : S1024x4096.ShapeCasts S1024x32x128
  reduces_S1024x32x128_S1024x128 : S1024x32x128.Reduces [1] S1024x128
  inb_S1024x128_S1024x128_0_0 : ∀ a, (![0, 0] : Fin 2 → Nat) a + S1024x128.size a ≤ S1024x128.size a
  h_S1024x128 : 0 < S1024x128.numel
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x256.size a ≤ S32x512x256.size a
  hwx0_1 : ∀ i : grid0.Coords, EltTy.bits .bf16 = 32 ∨ (Rect.block (s := S32x512x256) S32x128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x512.size a
  hwx0_2 : ∀ i : grid0.Coords, EltTy.bits .f32 = 32 ∨ (Rect.block (s := S8192x512) S1024x128.size (cc0_transform_2 i) (hinb0_2 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S512x32x256 : Shape := ⟨3, ![512, 32, 256]⟩
abbrev S8192x512x32 : Shape := ⟨3, ![8192, 512, 32]⟩
abbrev S_ : Shape := ⟨0, ![]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S512x32x256, .f32⟩
  | .hbm, ⟨2, _⟩ => ⟨S8192x512x32, .f32⟩
  | .hbm, ⟨3, _⟩ => ⟨S_, .f32⟩
  | .hbm, ⟨4, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  reducesTo_S8192x512x32_S8192x512_d2 : S8192x512x32.ReducesTo [2] S8192x512
  h_S_ : 0 < S_.numel
  dot_S8192x256_S512x32x256_S8192x512x32_1_2_0_01_n_n_wf : DotDims.WF S8192x256 S512x32x256 S8192x512x32 [1] [2] [0] [0, 1] [] []

variable [Facts₀]

def dot_S8192x256_S512x32x256_S8192x512x32_1_2_0_01_n_n : DotDims S8192x256 S512x32x256 S8192x512x32 where
  lhsContracting := [1]
  rhsContracting := [2]
  lhsNonContracting := [0]
  rhsNonContracting := [0, 1]
  lhsBatch := []
  rhsBatch := []
  wf := dot_S8192x256_S512x32x256_S8192x512x32_1_2_0_01_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibCasts.lean ====
/-
  Reads at an index of four small layout operations on arrays of rank 2 and 3, over literal coordinates:
  a unit axis inserted last (`[a, b] → [a, b, 1]`) or in the middle (`[a, c] → [a, 1, c]`) keeps the row-major
  position of every element, so the cast reads the operand at the remaining coordinates; and a broadcast along
  a unit axis (`[a, b, 1] → [a, b, c]`, `[a, 1, c] → [a, b, c]`) reads the operand at `0` on that axis.
-/
import Idealize.ShloMosaic.Lib.Pipeline.Value
import Idealize.ShloMosaic.Lib.ValueIdx

noncomputable section

namespace Cert.Dispatch.Casts

open Idealize.ShloMosaic Idealize.ShloMosaic.ValueIdx

variable {α : Type}

/-- An `[a, b]` array cast to `[a, b, 1]` reads, at `(i, j, u)`, the operand at `(i, j)`:
    `(i·b + j)·1 + u = i·b + j` since `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, j)`, the operand at `(i, j)`:
    `(i·1 + u)·c + j = i·c + j` since `u = 0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Cert.Dispatch.Casts

end
-- ==== Proof.LibMinMaxChunk.lean ====
/-
  One chunk of a max–min ("tropical") matrix product, read at an index, at the ideal values.

  For a matrix `x : [A, K]` and a matrix `w : [K, B]` the product's entry `(p, q)` is the maximum over `i < K` of
  `min (x[p, i]) (w[i, q])`; `term x w p q i` names that `i`-th term. A chunk of `C` consecutive values of `i` from the offset
  `o` is computed by cutting `C` columns of `x` and `C` rows of `w`, giving the first a trailing and the second a leading unit
  axis, broadcasting both to `[A, C, B]`, taking the minimum and reducing the middle axis by `max` from the seed `-∞`. Read at
  `(p, q)` this is the maximum, from that seed, over `k < C` of `term x w p q (o + k)` (`chunkMax_apply`): each layout operation
  keeps or drops a coordinate (`pairMin_apply`), and the reduction over one axis is the fold of `max` over that axis's
  coordinates (`reduceMid_apply`).
-/
import Idealize.ShloMosaic.Lib.Pipeline.Value
import Idealize.ShloMosaic.Lib.ValueIdx
import Idealize.ShloMosaic.Lib.ValueLayout
import Idealize.ShloMosaic.PureOps.Ideal.Laws
import proofs.«168695_j36713380446638_2_alg».proof.Proof.LibCasts

noncomputable section

namespace Cert.MinMaxChunk

open Idealize.ShloMosaic Idealize.ShloMosaic.ValueIdx Cert.Dispatch.Casts

/-- A `[1, b, c]` array broadcast to `[a, b, c]` reads, at `(i, j, l)`, the operand at `(0, j, l)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- The `i`-th term of the max–min product's entry `(p, q)`: `min (x[p, i]) (w[i, q])`. Past the contracted extent it is
    `⊥`, a value no statement below ever reads. -/
def term {A K B : ℕ} (x : FVec Ideal ⟨2, ![A, K]⟩ .f32) (w : FVec Ideal ⟨2, ![K, B]⟩ .f32) (p : Fin A) (q : Fin B)
    (i : ℕ) : EReal :=
  if h : i < K then min (x (ix2 p ⟨i, h⟩) : EReal) (w (ix2 ⟨i, h⟩ q)) else ⊥

/-- Inside the contracted extent the term is the minimum of the two entries. -/
theorem term_of_lt {A K B : ℕ} (x : FVec Ideal ⟨2, ![A, K]⟩ .f32) (w : FVec Ideal ⟨2, ![K, B]⟩ .f32) (p : Fin A) (q : Fin B)
    (i : Fin K) : term x w p q i.val = min (x (ix2 p i) : EReal) (w (ix2 i q)) := by
  unfold term
  rw [dif_pos i.isLt]

/-- THE CHUNK'S MINIMA AT `(p, k, q)`: `C` columns of `x` from `o`, as `[A, C, 1]`, and `C` rows of `w` from `o`, as
    `[1, C, B]`, both broadcast to `[A, C, B]`; their minimum at `(p, k, q)` is `min (x[p, o + k]) (w[o + k, q])`. -/
theorem pairMin_apply {A K B C : ℕ} (x : FVec Ideal ⟨2, ![A, K]⟩ .f32) (w : FVec Ideal ⟨2, ![K, B]⟩ .f32) (o : ℕ)
    (ho : o + C ≤ K)
    (hs1 : (⟨2, ![A, K]⟩ : Shape).Slices ![0, o] ⟨2, ![A, C]⟩) (hs2 : (⟨2, ![K, B]⟩ : Shape).Slices ![o, 0] ⟨2, ![C, B]⟩)
    (hc1 : (⟨2, ![A, C]⟩ : Shape).ShapeCasts ⟨3, ![A, C, 1]⟩) (hc2 : (⟨2, ![C, B]⟩ : Shape).ShapeCasts ⟨3, ![1, C, B]⟩)
    (hb1 : (⟨3, ![A, C, 1]⟩ : Shape).Broadcasts ⟨3, ![A, C, B]⟩) (hb2 : (⟨3, ![1, C, B]⟩ : Shape).Broadcasts ⟨3, ![A, C, B]⟩)
    (p : Fin A) (k : Fin C) (q : Fin B) :
    minimumf (broadcastTo ⟨3, ![A, C, B]⟩ (shapeCast ⟨3, ![A, C, 1]⟩ (extractStridedSlice ⟨2, ![A, C]⟩ ![0, o] x hs1) hc1) hb1)
        (broadcastTo ⟨3, ![A, C, B]⟩ (shapeCast ⟨3, ![1, C, B]⟩ (extractStridedSlice ⟨2, ![C, B]⟩ ![o, 0] w hs2) hc2) hb2)
        (ix3 p k q)
      = term x w p q (o + k.val) := by
  have hk : o + k.val < K := by have := k.isLt; omega
  rw [minimumf_apply, broadcastTo_ab1_abc_apply, shapeCast_ab_ab1_apply, broadcastTo_1bc_abc_apply, shapeCast_ab_1ab_apply,
    slice2_axis1_apply o x hs1 p k ⟨o + k.val, hk⟩ rfl, slice2_axis0_apply o w hs2 k q ⟨o + k.val, hk⟩ rfl]
  exact (term_of_lt x w p q ⟨o + k.val, hk⟩).symm

/-- A `max`-reduction of an `[A, C, B]` array over its middle axis, from the seed `-∞`, reads at `(p, q)` the fold of `max`
    from that seed over the middle coordinate `k` of the array at `(p, k, q)`. -/
theorem reduceMid_apply {A C B : ℕ} (T : FVec Ideal ⟨3, ![A, C, B]⟩ .f32)
    (h : (⟨3, ![A, C, B]⟩ : Shape).Reduces [1] ⟨2, ![A, B]⟩) (hφ : FKind.Formats .f32)
    (hacc : (0xFF800000#32 : BitVec 32) = FKind.maximumf.neutral .f32 hφ) (p : Fin A) (q : Fin B) :
    multiReduction .maximumf [1] ⟨2, ![A, B]⟩ T 0xFF800000#32 h hφ hacc (ix2 p q)
      = (Finset.univ : Finset (Fin C)).fold max (Ideal.ofBits .f32 0xFF800000#32) (fun k => T (ix3 p k q)) := by
  refine (Ideal.multiReduction_maximumf_single T _ h hφ hacc (ix2 p q)).trans ?_
  refine congrArg (fun f => (Finset.univ : Finset (Fin C)).fold max (Ideal.ofBits .f32 0xFF800000#32) f)
    (funext fun k => congrArg T ?_)
  funext ax
  match ax with
  | ⟨0, _⟩ => rfl
  | ⟨1, _⟩ => rfl
  | ⟨2, _⟩ => rfl

/-- THE CHUNK AT `(p, q)`: the maximum, from the seed `-∞`, over `k < C` of the product's terms `o + k`. -/
theorem chunkMax_apply {A K B C : ℕ} (x : FVec Ideal ⟨2, ![A, K]⟩ .f32) (w : FVec Ideal ⟨2, ![K, B]⟩ .f32) (o : ℕ)
    (ho : o + C ≤ K)
    (hs1 : (⟨2, ![A, K]⟩ : Shape).Slices ![0, o] ⟨2, ![A, C]⟩) (hs2 : (⟨2, ![K, B]⟩ : Shape).Slices ![o, 0] ⟨2, ![C, B]⟩)
    (hc1 : (⟨2, ![A, C]⟩ : Shape).ShapeCasts ⟨3, ![A, C, 1]⟩) (hc2 : (⟨2, ![C, B]⟩ : Shape).ShapeCasts ⟨3, ![1, C, B]⟩)
    (hb1 : (⟨3, ![A, C, 1]⟩ : Shape).Broadcasts ⟨3, ![A, C, B]⟩) (hb2 : (⟨3, ![1, C, B]⟩ : Shape).Broadcasts ⟨3, ![A, C, B]⟩)
    (h : (⟨3, ![A, C, B]⟩ : Shape).Reduces [1] ⟨2, ![A, B]⟩) (hφ : FKind.Formats .f32)
    (hacc : (0xFF800000#32 : BitVec 32) = FKind.maximumf.neutral .f32 hφ) (p : Fin A) (q : Fin B) :
    multiReduction .maximumf [1] ⟨2, ![A, B]⟩
        (minimumf (broadcastTo ⟨3, ![A, C, B]⟩ (shapeCast ⟨3, ![A, C, 1]⟩ (extractStridedSlice ⟨2, ![A, C]⟩ ![0, o] x hs1) hc1) hb1)
          (broadcastTo ⟨3, ![A, C, B]⟩ (shapeCast ⟨3, ![1, C, B]⟩ (extractStridedSlice ⟨2, ![C, B]⟩ ![o, 0] w hs2) hc2) hb2))
        0xFF800000#32 h hφ hacc (ix2 p q)
      = (Finset.univ : Finset (Fin C)).fold max (Ideal.ofBits .f32 0xFF800000#32) (fun k => term x w p q (o + k.val)) :=
  (reduceMid_apply _ h hφ hacc p q).trans
    (congrArg (fun f => (Finset.univ : Finset (Fin C)).fold max (Ideal.ofBits .f32 0xFF800000#32) f)
      (funext fun k => pairMin_apply x w o ho hs1 hs2 hc1 hc2 hb1 hb2 p k q))

end Cert.MinMaxChunk

end
-- ==== Proof.BlockScores.lean ====
/-
  What the kernel body computes from one pair of blocks, read at an index, at the ideal values.

  The body holds a block `a : [1024, 256]` of queries and a block `w : [32, 128, 256]` of shots laid out shot-major
  (`w[k, q, ·]` is shot `k` of the block's class `q`). It folds the two leading axes of `w` into the 4096 rows `k·128 + q`,
  multiplies the queries by those rows contracting the 256 features (into a zero accumulator), splits the 4096 columns of
  the product back into `(k, q)`, and takes the maximum over `k` from `-∞`. So at `(p, q)` the block of scores holds the
  maximum over the 32 shots `k` of `∑_d a[p, d] · w[k, q, d]`. Changes of float format are the identity here.
-/
import proofs.«168695_j36713380446638_2_alg».proof.Proof.Gen.KernelIdeal.Skeleton
import proofs.«168695_j36713380446638_2_alg».proof.Proof.LibContract1
import proofs.«168695_j36713380446638_2_alg».proof.Proof.LibMinMaxChunk
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- Row `k·128 + q` of the folded shots is in range. -/
theorem row_lt (k : Fin 32) (q : Fin 128) : k.val * 128 + q.val < 4096 := by
  have := k.isLt; have := q.isLt; omega

/-- The row of the folded block that holds shot `k` of class `q`. -/
abbrev row (k : Fin 32) (q : Fin 128) : Fin 4096 := ⟨k.val * 128 + q.val, row_lt k q⟩

/-- Folding `[32, 128, 256]` into `[4096, 256]` keeps row-major positions: row `k·128 + q`, feature `d` is `(k, q, d)`. -/
theorem foldShots_apply (w : FVec Ideal S32x128x256 .bf16) (h : S32x128x256.ShapeCasts S4096x256) (k : Fin 32)
    (q : Fin 128) (d : Fin 256) : shapeCast S4096x256 w h (ix2 (row k q) d) = w (ix3 k q d) :=
  shapeCast_apply w h _ _ (by
    rw [Shape.rowMajor_val_three, Shape.rowMajor_val_two]
    show (k.val * 128 + q.val) * 256 + d.val = (k.val * 128 + q.val) * 256 + d.val
    rfl)

/-- Splitting the 4096 columns of `[1024, 4096]` into `[1024, 32, 128]`: `(p, k, q)` is column `k·128 + q` of row `p`. -/
theorem splitShots_apply (v : FVec Ideal S1024x4096 .f32) (h : S1024x4096.ShapeCasts S1024x32x128) (p : Fin 1024)
    (k : Fin 32) (q : Fin 128) : shapeCast S1024x32x128 v h (ix3 p k q) = v (ix2 p (row k q)) :=
  shapeCast_apply v h _ _ (by
    rw [Shape.rowMajor_val_three, Shape.rowMajor_val_two]
    show p.val * 4096 + (k.val * 128 + q.val) = (p.val * 32 + k.val) * 128 + q.val
    omega)

/-- The product of the queries `[1024, 256]` with the folded shots `[4096, 256]`, both contracted on their last axis, into
    the zero accumulator: at `(p, r)` the inner product of query `p` with row `r`. -/
theorem products_apply (a : FVec Ideal S1024x256 .bf16) (w : FVec Ideal S4096x256 .bf16) (p : Fin 1024) (r : Fin 4096) :
    matmul dot_S1024x256_S4096x256_S1024x4096_1_1_0_0_n_n none a w (constant (F := Ideal) S1024x4096 .f32 0x00000000#32) (ix2 p r)
      = ∑ d : Fin 256, a (ix2 p d) * w (ix2 r d) := by
  refine Cert.LibContract1.matmul_zero_single dot_S1024x256_S4096x256_S1024x4096_1_1_0_0_n_n 256 rfl rfl a w (ix2 p r)
    (fun d => ix2 p d) (fun d => ix2 r d) (fun d => ?_) (fun d => ?_)
  · have hk := contrEquiv1_symm_val dot_S1024x256_S4096x256_S1024x4096_1_1_0_0_n_n 256 rfl rfl d
    funext ax
    apply Fin.ext
    match ax with
    | ⟨0, _⟩ =>
      show (dot_S1024x256_S4096x256_S1024x4096_1_1_0_0_n_n.lhsIdx (ix2 p r) _ 0).val = p.val
      unfold DotDims.lhsIdx
      rw [dif_neg (show ¬(0 : Fin S1024x256.rank) ∈ dot_S1024x256_S4096x256_S1024x4096_1_1_0_0_n_n.lhsBatch by decide),
        dif_pos (show (0 : Fin S1024x256.rank) ∈ dot_S1024x256_S4096x256_S1024x4096_1_1_0_0_n_n.lhsNonContracting by decide)]
      rfl
    | ⟨1, _⟩ => exact (dot_S1024x256_S4096x256_S1024x4096_1_1_0_0_n_n.lhsIdx_val_of_single rfl (ix2 p r) _).trans hk
  · have hk := contrEquiv1_symm_val dot_S1024x256_S4096x256_S1024x4096_1_1_0_0_n_n 256 rfl rfl d
    funext ax
    apply Fin.ext
    match ax with
    | ⟨0, _⟩ =>
      show (dot_S1024x256_S4096x256_S1024x4096_1_1_0_0_n_n.rhsIdx (ix2 p r) _ 0).val = r.val
      unfold DotDims.rhsIdx
      rw [dif_neg (show ¬(0 : Fin S4096x256.rank) ∈ dot_S1024x256_S4096x256_S1024x4096_1_1_0_0_n_n.rhsBatch by decide),
        dif_pos (show (0 : Fin S4096x256.rank) ∈ dot_S1024x256_S4096x256_S1024x4096_1_1_0_0_n_n.rhsNonContracting by decide)]
      rfl
    | ⟨1, _⟩ => exact (dot_S1024x256_S4096x256_S1024x4096_1_1_0_0_n_n.rhsIdx_val_of_single rfl (ix2 p r) _).trans hk

/-- The block of scores at `(p, q)`: the maximum, from `-∞`, over the shots `k` of the inner product of query `p` with shot
    `k` of class `q`. -/
def blockBest (a : Vec Ideal S1024x256 .f32) (w : Vec Ideal S32x128x256 .bf16) (p : Fin 1024) (q : Fin 128) : Ideal .f32 :=
  (Finset.univ : Finset (Fin 32)).fold max (Ideal.ofBits .f32 0xFF800000#32)
    (fun k => ∑ d : Fin 256, a (ix2 p d) * w (ix3 k q d))

/-- The body's stored value as one term of its two loaded blocks, at any float instance: the operations in the order the
    body applies them. -/
theorem payload_eq {F : FTy → Type} [FloatOps F] (a : Vec F S1024x256 .f32) (w : Vec F S32x128x256 .bf16) :
    k0_pay1 a w
      = multiReduction .maximumf [1] S1024x128
          (shapeCast S1024x32x128
            (matmul dot_S1024x256_S4096x256_S1024x4096_1_1_0_0_n_n none (truncf .bf16 a bitsLt_bf16_f32)
              (shapeCast S4096x256 (shapeCast S32x128x256 w shapeCasts_S32x128x256_S32x128x256) shapeCasts_S32x128x256_S4096x256)
              (constant S1024x4096 .f32 0x00000000#32))
            shapeCasts_S1024x4096_S1024x32x128)
          0xFF800000#32 reduces_S1024x32x128_S1024x128 (.inl rfl) rfl := rfl

/-- THE BODY'S STORED VALUE at `(p, q)` is `blockBest`: the reduction over the middle axis is the fold of `max` over `k`; the
    split reads column `k·128 + q` of the product; the product is the sum over the features; the folded shots at row
    `k·128 + q` are `w[k, q, ·]`; the format change and the cast to the same shape are the identity. -/
theorem payload_apply (a : Vec Ideal S1024x256 .f32) (w : Vec Ideal S32x128x256 .bf16) (p : Fin 1024) (q : Fin 128) :
    k0_pay1 (F := Ideal) a w (ix2 p q) = blockBest a w p q := by
  rw [payload_eq]
  refine (Cert.MinMaxChunk.reduceMid_apply _ _ _ _ p q).trans ?_
  unfold blockBest
  refine congrArg (fun f => (Finset.univ : Finset (Fin 32)).fold max (Ideal.ofBits .f32 0xFF800000#32) f)
    (funext fun k => ?_)
  refine (splitShots_apply _ _ p k q).trans ?_
  refine (products_apply _ _ p (row k q)).trans ?_
  refine Finset.sum_congr rfl fun d _ => ?_
  rw [foldShots_apply, shapeCast_self]
  rfl

end Cert.KernelIdeal.Block

end
-- ==== Proof.MaxSimSpec.lean ====
/-
  The function both programs compute. A query `b` is a row of `x1 : [8192, 256]`; a class `c` has 32 shots, shot `k` the
  row `x2[c, k, ·]` of `x2 : [512, 32, 256]`. The similarity of query `b` with shot `k` of class `c` is the inner product
  `sim b c k = ∑_d x1[b, d] · x2[c, k, d]` over the 256 features, and the score of `b` against `c` is the largest of the
  class's 32 similarities, the maximum taken from the seed `-∞` (the f32 word `0xFF800000`).

  Everything is read on the extended reals. Only addition, multiplication and `max` occur, each used in one fixed
  arrangement on both sides, so no law that could fail at an infinity is needed and no finiteness of the inputs is used.
-/
import Idealize.ShloMosaic.PureOps.Ideal
import Idealize.ShloMosaic.Lib.ValueIdx

noncomputable section

namespace Cert.MaxSim

open Idealize.ShloMosaic Idealize.ShloMosaic.ValueIdx

/-- The queries: 8192 rows of 256 features. -/
abbrev Queries : Shape := ⟨2, ![8192, 256]⟩
/-- The shots: 512 classes, 32 shots each, 256 features. -/
abbrev Shots : Shape := ⟨3, ![512, 32, 256]⟩
/-- The scores: one per query and class. -/
abbrev Scores : Shape := ⟨2, ![8192, 512]⟩

/-- The inner product of query `b` with shot `k` of class `c`. -/
def sim (x1 : FVec Ideal Queries .f32) (x2 : FVec Ideal Shots .f32) (b : Fin 8192) (c : Fin 512) (k : Fin 32) : Ideal .f32 :=
  ∑ d : Fin 256, x1 (ix2 b d) * x2 (ix3 c k d)

/-- The score array: at `(b, c)` the maximum, from `-∞`, of the 32 similarities of query `b` with class `c`'s shots. -/
def best (x1 : FVec Ideal Queries .f32) (x2 : FVec Ideal Shots .f32) : FVec Ideal Scores .f32 := fun i =>
  (Finset.univ : Finset (Fin 32)).fold max (Ideal.ofBits .f32 0xFF800000#32) (fun k => sim x1 x2 (i 0) (i 1) k)

/-- The score at explicit coordinates. -/
theorem best_apply (x1 : FVec Ideal Queries .f32) (x2 : FVec Ideal Shots .f32) (b : Fin 8192) (c : Fin 512) :
    best x1 x2 (ix2 b c)
      = (Finset.univ : Finset (Fin 32)).fold max (Ideal.ofBits .f32 0xFF800000#32) (fun k => sim x1 x2 b c k) := rfl

end Cert.MaxSim

end
-- ==== Proof.KernelScores.lean ====
/-
  The score array the kernel leaves, as one function of its two arguments.

  The grid has 4 × 8 points `(j, i)`: `j` a block of 128 classes, `i` a block of 1024 queries. At a point the body is given
  rows `i·1024 …` of the queries, classes `j·128 …` of the shots — which the host has first re-laid shot-major, `[32, 512, 256]`
  with `(k, c, d)` holding shot `k` of class `c` — and writes back block `(i, j)` of the scores. Block by block what is
  written is the maximum over the 32 shots of the inner products (BlockScores), every entry of the `[8192, 512]` array lies
  in exactly the block `(row / 1024, column / 128)`, and so the array ends holding `best` of the two arguments.
-/
import proofs.«168695_j36713380446638_2_alg».proof.Proof.Gen.KernelIdeal.Value
import proofs.«168695_j36713380446638_2_alg».proof.Proof.BlockScores
import proofs.«168695_j36713380446638_2_alg».proof.Proof.MaxSimSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Scores

open Cert.KernelIdeal Cert.KernelIdeal.Gen Cert.KernelIdeal.Value Cert.KernelIdeal.Block
open Idealize.ShloMosaic.ValueIdx Idealize.ShloMosaic.StableHlo Cert.MaxSim

variable (m : (ℓ : Loc nD τ sig) → Buf (Elt Ideal) ℓ) (ρ : Dev nD → PrngReg)

/-! ## The shots as the region finds them -/

/-- Before the region the host swaps the class and shot axes of the shots and changes their float format (the
    identity on the extended reals): the array the second window stages is that transpose. -/
theorem shotMajor_eq (c : Dev nD) :
    @Eq (FVec Ideal S32x512x256 .bf16) (V m c main_v1)
      (truncf (F := Ideal) .bf16
        (transpose S32x512x256 [1, 0, 2] (m ((c : Thread nD τ).loc main_arg1) : FVec Ideal S512x32x256 .f32)
          transposes_S512x32x256_S32x512x256_1_0_2) bitsLt_bf16_f32) := by
  dsimp only [Gen.V, Gen.hostOps0]
  after_results

/-- Entry `(k, cl, d)` of the shot-major array is shot `k` of class `cl`, feature `d`, of the argument. -/
theorem shotMajor_apply (c : Dev nD) (k : Fin 32) (cl : Fin 512) (d : Fin 256) :
    (V m c main_v1 : S32x512x256.Idx → Ideal .bf16) (ix3 k cl d)
      = (m ((c : Thread nD τ).loc main_arg1) : S512x32x256.Idx → Ideal .f32) (ix3 cl k d) := by
  refine (congrFun (shotMajor_eq m c) (ix3 k cl d)).trans ?_
  show transpose S32x512x256 [1, 0, 2] (m ((c : Thread nD τ).loc main_arg1) : FVec Ideal S512x32x256 .f32)
    transposes_S512x32x256_S32x512x256_1_0_2 (ix3 k cl d) = _
  exact transpose_apply [1, 0, 2] _ transposes_S512x32x256_S32x512x256_1_0_2 (ix3 k cl d) (ix3 cl k d) (fun b => by
    match b with
    | ⟨0, _⟩ => rfl
    | ⟨1, _⟩ => rfl
    | ⟨2, _⟩ => rfl)

/-! ## Where each window's block sits -/

/-- The three index maps, decided over the 32 grid points: the queries' block moves with the scores' row block, the
    shots' block with the scores' column block, and the other block coordinates are 0; there are 8 row blocks and 4
    column blocks. -/
theorem idx_facts : ∀ t : Fin cfg0.N,
    win0_0.index t (0 : Fin 2) = win0_2.index t (0 : Fin 2) ∧ win0_0.index t (1 : Fin 2) = 0
    ∧ win0_1.index t (0 : Fin 3) = 0 ∧ win0_1.index t (1 : Fin 3) = win0_2.index t (1 : Fin 2)
    ∧ win0_1.index t (2 : Fin 3) = 0
    ∧ win0_2.index t (0 : Fin 2) ≤ 7 ∧ win0_2.index t (1 : Fin 2) ≤ 3 :=
  (by decide +kernel : ∀ t : Fin grid0.N, _)

/-- Every block `(q0, q1)` of the scores is some grid point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- Row `p` of the queries' block at point `t` is row `b` of the argument, `b` the block's first row plus `p`. -/
theorem queries_blk (c : Dev nD) (t : Fin cfg0.N) (p : Fin 1024) (d : Fin 256) (b : Fin 8192)
    (hb : b.val = win0_2.index t (0 : Fin 2) * 1024 + p.val) :
    (iblk m c 0 t : Vec Ideal S1024x256 .f32) (ix2 p d)
      = (m ((c : Thread nD τ).loc main_arg0) : S8192x256.Idx → Ideal .f32) (ix2 b d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 1024 + 1 * p.val = b.val; omega
  | ⟨1, _⟩ => show win0_0.index t (1 : Fin 2) * 256 + 1 * d.val = d.val; omega

/-- Entry `(k, q, d)` of the shots' block at point `t` is shot `k` of class `cl` of the argument, `cl` the block's first
    class plus `q`. -/
theorem shots_blk (c : Dev nD) (t : Fin cfg0.N) (k : Fin 32) (q : Fin 128) (d : Fin 256) (cl : Fin 512)
    (hcl : cl.val = win0_2.index t (1 : Fin 2) * 128 + q.val) :
    (iblk m c 1 t : Vec Ideal S32x128x256 .bf16) (ix3 k q d)
      = (m ((c : Thread nD τ).loc main_arg1) : S512x32x256.Idx → Ideal .f32) (ix3 cl k d) := by
  obtain ⟨-, -, e2, e3, e4, -⟩ := idx_facts t
  show V m c main_v1 (((cfg0.win 1).blk t).view.emb (ix3 k q d)) = _
  have he : ((cfg0.win 1).blk t).view.emb (ix3 k q d) = ix3 k cl d := funext fun a => Fin.ext (by
    match a with
    | ⟨0, _⟩ => show win0_1.index t (0 : Fin 3) * 32 + 1 * k.val = k.val; omega
    | ⟨1, _⟩ => show win0_1.index t (1 : Fin 3) * 128 + 1 * q.val = cl.val; omega
    | ⟨2, _⟩ => show win0_1.index t (2 : Fin 3) * 256 + 1 * d.val = d.val; omega)
  rw [he]
  exact shotMajor_apply m c k cl d

/-! ## What a point writes back -/

theorem zero2 : (![0, 0] : Fin 2 → Nat) = fun _ => 0 := funext fun a => by fin_cases a <;> rfl
theorem zero3 : (![0, 0, 0] : Fin 3 → Nat) = fun _ => 0 := funext fun a => by fin_cases a <;> rfl

/-- WHAT POINT `t` WRITES BACK is block `t` of `best` of the two arguments: at `(p, q)` of the block the body stored the
    maximum over the shots of the inner products of the blocks' rows, and those rows are rows of the arguments. -/
theorem flushed_eq (c : Dev nD) (t : Fin cfg0.N) :
    (dats m 0 c).flushed 2 t
      = ((cfg0.win 2).blk t).view.read (Elt Ideal)
          (best (m ((c : Thread nD τ).loc main_arg0)) (m ((c : Thread nD τ).loc main_arg1))) := by
  rw [Value.flushed2]
  unfold out0_2
  rw [View.canon_unit_zero zero2]
  simp only [View.ld_unit_zero (S := S1024x256) zero2, View.ld_unit_zero (S := S32x128x256) zero3]
  refine funext fun (j : S1024x128.Idx) => ?_
  obtain ⟨p, q, rfl⟩ : ∃ (p : Fin 1024) (q : Fin 128), j = ix2 p q := ⟨j 0, j 1, eq_ix2 j⟩
  obtain ⟨-, -, -, -, -, l0, l1⟩ := idx_facts t
  have hb : win0_2.index t (0 : Fin 2) * 1024 + p.val < 8192 := by have := p.isLt; omega
  have hc : win0_2.index t (1 : Fin 2) * 128 + q.val < 512 := by have := q.isLt; omega
  show k0_pay1 (iblk m c 0 t) (iblk m c 1 t) (ix2 p q)
    = best (m ((c : Thread nD τ).loc main_arg0)) (m ((c : Thread nD τ).loc main_arg1))
        (((cfg0.win 2).blk t).view.emb (ix2 p q))
  have he : ((cfg0.win 2).blk t).view.emb (ix2 p q)
      = ix2 (⟨win0_2.index t (0 : Fin 2) * 1024 + p.val, hb⟩ : Fin 8192) (⟨win0_2.index t (1 : Fin 2) * 128 + q.val, hc⟩ : Fin 512) :=
    funext fun a => Fin.ext (by
      match a with
      | ⟨0, _⟩ => show win0_2.index t (0 : Fin 2) * 1024 + 1 * p.val = win0_2.index t (0 : Fin 2) * 1024 + p.val; omega
      | ⟨1, _⟩ => show win0_2.index t (1 : Fin 2) * 128 + 1 * q.val = win0_2.index t (1 : Fin 2) * 128 + q.val; omega)
  rw [he, best_apply]
  refine (payload_apply (iblk m c 0 t) (iblk m c 1 t) p q).trans ?_
  unfold blockBest
  refine congrArg (fun f => (Finset.univ : Finset (Fin 32)).fold max (Ideal.ofBits .f32 0xFF800000#32) f)
    (funext fun k => ?_)
  unfold sim
  refine Finset.sum_congr rfl fun d _ => ?_
  exact congrArg₂ (fun u v : EReal => u * v) (queries_blk m c t p d ⟨_, hb⟩ rfl) (shots_blk m c t k q d ⟨_, hc⟩ rfl)

/-! ## The blocks cover the array -/

/-- An entry of the scores is in point `t`'s block iff each coordinate is in the block's range on its axis. -/
theorem mem_blk (t : Fin cfg0.N) (i : S8192x512.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v2).slice (win0_2.rect t)).set ↔ _
  rw [View.set_slice_whole, Rect.mem_set_unit]
  exact Iff.rfl

/-- Entry `(r, s)` lies in the block `(r / 1024, s / 128)`, which some point writes back. -/
theorem covered (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := idx_onto ⟨(i 0).val / 1024, by omega⟩ ⟨(i 1).val / 128, by omega⟩
  have q0 : win0_2.index t (0 : Fin 2) = (i 0).val / 1024 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-! ## The array after the run -/

/-- THE SCORES after the run are `best` of the two arguments. -/
theorem final (c : Dev nD) :
    (dats m 0 c).arrAt 2 cfg0.N = best (m ((c : Thread nD τ).loc main_arg0)) (m ((c : Thread nD τ).loc main_arg1)) :=
  (dats m 0 c).arrAt_eq_of_cover 2 (best (m ((c : Thread nD τ).loc main_arg0)) (m ((c : Thread nD τ).loc main_arg1)))
    (fun t _ => flushed_eq m c t) covered

/-- The kernel's run, read: the result array at `best` of the arguments, the arguments unchanged. -/
theorem run : θ_run defs (onTc (τ := τ) (main (F := Ideal))) ⟨m, fun _ => 0, ρ⟩ fun r => ∀ c : Dev nD,
      r.2.mem ((c : Thread nD τ).loc main_v2)
        = best (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scores

end
-- ==== Proof.ReferenceScores.lean ====
/-
  The reference computes the score array of MaxSimSpec: its `dot_general` contracts the feature axis of the queries
  `[8192, 256]` with the feature axis of the shots `[512, 32, 256]`, giving at `(b, c, k)` the inner product `sim b c k`,
  and its `reduce` takes, at `(b, c)`, the maximum over the last axis `k` from the seed `-∞`.
-/
import proofs.«168695_j36713380446638_2_alg».proof.Proof.Gen.ReferenceIdeal.Read
import proofs.«168695_j36713380446638_2_alg».proof.Proof.MaxSimSpec

noncomputable section

namespace Cert.ReferenceIdeal.Scores

open Cert.ReferenceIdeal Cert.ReferenceIdeal.Gen Cert.ReferenceIdeal.Read Idealize.ShloMosaic Idealize.ShloMosaic.ValueIdx
open Cert.MaxSim

/-- The product array at `(b, c, k)` is the inner product of query `b` with shot `k` of class `c`: the left operand is read
    at `(b, d)`, the right at `(c, k, d)`, `d` running over the contracted feature axis. -/
theorem products_apply (x0 : FVec Ideal S8192x256 .f32) (x1 : FVec Ideal S512x32x256 .f32) (b : Fin 8192) (c : Fin 512)
    (k : Fin 32) : val_main_v0 (F := Ideal) x0 x1 (ix3 b c k) = sim x0 x1 b c k := by
  rw [val_main_v0_apply]
  unfold sim
  refine Finset.sum_congr rfl fun d _ => ?_
  have el : lidx_main_v0 (ix3 b c k) d = ix2 b d :=
    funext fun a => Fin.ext (by match a with | ⟨0, _⟩ => rfl | ⟨1, _⟩ => rfl)
  have er : ridx_main_v0 (ix3 b c k) d = ix3 c k d :=
    funext fun a => Fin.ext (by match a with | ⟨0, _⟩ => rfl | ⟨1, _⟩ => rfl | ⟨2, _⟩ => rfl)
  rw [el, er]

/-- The reduced index `(b, c)` with the coordinate `k` put back on the dropped last axis is `(b, c, k)`. -/
theorem lift_last (h : S8192x512x32.Reduces [2] S8192x512) (b : Fin 8192) (c : Fin 512) (k : Fin 32) :
    h.lift (ix2 b c) k = ix3 b c k := by
  funext a
  match a with
  | ⟨0, _⟩ => rfl
  | ⟨1, _⟩ => rfl
  | ⟨2, _⟩ => rfl

/-- THE REFERENCE'S RESULT is the score array: at `(b, c)` the maximum from `-∞` over the shots `k` of `sim b c k`. -/
theorem result_eq_best (x0 : FVec Ideal S8192x256 .f32) (x1 : FVec Ideal S512x32x256 .f32) :
    val_main_v1 (F := Ideal) x0 x1 = best x0 x1 := by
  funext j
  obtain ⟨b, c, rfl⟩ : ∃ (b : Fin 8192) (c : Fin 512), j = ix2 b c := ⟨j 0, j 1, eq_ix2 j⟩
  have h : S8192x512x32.Reduces [2] S8192x512 := by decide
  unfold val_main_v1
  rw [Host.reduce_eq_fold_single FloatOps.maximumf _ _ reducesTo_S8192x512x32_S8192x512_d2 h h_S_, best_apply]
  refine congrArg (fun f => (Finset.univ : Finset (Fin 32)).fold max (Ideal.ofBits .f32 0xFF800000#32) f)
    (funext fun k => ?_)
  exact (congrArg (val_main_v0 (F := Ideal) x0 x1) (lift_last h b c k)).trans (products_apply x0 x1 b c k)

end Cert.ReferenceIdeal.Scores

end
-- ==== Proof.lean ====
/-
  Nearest-shot similarity scores: for queries `x1 : [8192, 256]` and shots `x2 : [512, 32, 256]` (class, shot, feature) the
  score of query `b` against class `c` is `max_k ∑_d x1[b, d] · x2[c, k, d]`, the maximum over the class's 32 shots taken from
  `-∞` (MaxSimSpec: `best`).

  The kernel computes it block by block: the host re-lays the shots shot-major, and at each of 4 × 8 grid points the body
  multiplies 1024 queries by the 32 · 128 rows of a block of 128 classes, contracting the features, and reduces the 32
  shots of each class by `max`; the blocks written back tile the `[8192, 512]` result (BlockScores, KernelScores). The
  reference is one contraction over the features into `[8192, 512, 32]` followed by a `max` over the last axis
  (ReferenceScores). On the extended reals both are the same arrangement of the same sums and maxima, entry by entry, so
  the two results are equal for all inputs and the finiteness precondition is never used. The idealization rewrote no
  operation, so there is nothing to preserve beyond the program's own text.
-/
import proofs.«168695_j36713380446638_2_alg».proof.Defs
import proofs.«168695_j36713380446638_2_alg».proof.Proof.Gen.Kernel
import proofs.«168695_j36713380446638_2_alg».proof.Proof.Gen.Kernel.Skeleton
import proofs.«168695_j36713380446638_2_alg».proof.Proof.Gen.Kernel.Launch
import proofs.«168695_j36713380446638_2_alg».proof.Proof.Gen.Kernel.Points
import proofs.«168695_j36713380446638_2_alg».proof.Proof.Gen.Kernel.Frame
import proofs.«168695_j36713380446638_2_alg».proof.Proof.Gen.KernelIdeal
import proofs.«168695_j36713380446638_2_alg».proof.Proof.Gen.KernelIdeal.Skeleton
import proofs.«168695_j36713380446638_2_alg».proof.Proof.Gen.KernelIdeal.Launch
import proofs.«168695_j36713380446638_2_alg».proof.Proof.Gen.KernelIdeal.Points
import proofs.«168695_j36713380446638_2_alg».proof.Proof.Gen.KernelIdeal.Frame
import proofs.«168695_j36713380446638_2_alg».proof.Proof.Gen.KernelIdeal.Value
import proofs.«168695_j36713380446638_2_alg».proof.Proof.Gen.ReferenceIdeal
import proofs.«168695_j36713380446638_2_alg».proof.Proof.Gen.ReferenceIdeal.Run
import proofs.«168695_j36713380446638_2_alg».proof.Proof.Gen.ReferenceIdeal.Read
import proofs.«168695_j36713380446638_2_alg».proof.Proof.Gen.Pre_finite_inputs
import proofs.«168695_j36713380446638_2_alg».proof.Proof.KernelScores
import proofs.«168695_j36713380446638_2_alg».proof.Proof.ReferenceScores
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten: it ends and leaves its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories agreeing on the arguments both programs end with the score array `best` of those arguments: the kernel
    by its blocks covering the array, the reference by its product and its maximum read entry by entry. -/
theorem algebraic : Cert.algebraic_KernelIdeal_ReferenceIdeal := by
  intro m ρ m' ρ' _ hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v1_eq _ _).trans (Cert.ReferenceIdeal.Scores.result_eq_best _ _)).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
